-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S128x128 : Shape := ⟨2, ![128, 128]⟩
abbrev S128 : Shape := ⟨1, ![128]⟩
abbrev S160x128 : Shape := ⟨2, ![160, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S160x128 : S_.BroadcastsInDim S160x128 (![] : Fin 0 → Fin S160x128.rank)
  reducesTo_S160x128_S_d0_1 : S160x128.ReducesTo [0, 1] S_

variable [Facts]

def fn_part1 {F : FTy → Type} [FloatOps F] (main_arg5 : FVec F S160x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S160x128 .f32 := Host.absf main_arg5
  let main_cst_6 : FVec F S_ .f32 := constant S_ .f32 0x7F800000#32
  let main_v20 : FVec F S160x128 .f32 := broadcastInDim S160x128 ![] bcast_S_S160x128 main_cst_6
  let main_v21 : IVec S160x128 1 := cmpf .olt main_v19 main_v20
  let main_c_7 : IVec S_ 1 := constantI S_ 1 1#1
  let main_v22 : IVec S_ 1 := (fun x v => Host.reduce IntOp.andi x v reducesTo_S160x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x32 .f32) (main_arg3 : FVec F S128x128 .f32) (main_arg4 : FVec F S128 .f32) (main_arg5 : FVec F S160x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S128x128 : Shape := ⟨2, ![128, 128]⟩
abbrev S128 : Shape := ⟨1, ![128]⟩
abbrev S160x128 : Shape := ⟨2, ![160, 128]⟩
abbrev S1x1600000 : Shape := ⟨2, ![1, 1600000]⟩
abbrev S1600000 : Shape := ⟨1, ![1600000]⟩
abbrev S32x128 : Shape := ⟨2, ![32, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S8000x128 : Shape := ⟨2, ![8000, 128]⟩
abbrev S8000x32 : Shape := ⟨2, ![8000, 32]⟩
abbrev S5000x128 : Shape := ⟨2, ![5000, 128]⟩

abbrev nBuf : Space → Nat
  | .hbm => 35
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x128, .f32⟩
  | .hbm, ⟨4, _⟩ => ⟨S128, .f32⟩
  | .hbm, ⟨5, _⟩ => ⟨S160x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .bf16⟩
  | .hbm, ⟨12, _⟩ => ⟨S1600000x32, .bf16⟩
  | .hbm, ⟨13, _⟩ => ⟨S128x128, .f32⟩
  | .hbm, ⟨14, _⟩ => ⟨S128x128, .bf16⟩
  | .hbm, ⟨15, _⟩ => ⟨S32x128, .f32⟩
  | .hbm, ⟨16, _⟩ => ⟨S32x128, .bf16⟩
  | .hbm, ⟨17, _⟩ => ⟨S128x128, .bf16⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .bf16⟩
  | .hbm, ⟨27, _⟩ => ⟨S1x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1x128, .f32⟩
  | .hbm, ⟨34, _⟩ => ⟨S100000x128, .f32⟩
  | .local _ .vmem, ⟨0, _⟩ => ⟨S8000x128, .bf16⟩
  | .local _ .vmem, ⟨1, _⟩ => ⟨S8000x128, .bf16⟩
  | .local _ .vmem, ⟨2, _⟩ => ⟨S8000x32, .bf16⟩
  | .local _ .vmem, ⟨3, _⟩ => ⟨S8000x32, .bf16⟩
  | .local _ .vmem, ⟨4, _⟩ => ⟨S128x128, .bf16⟩
  | .local _ .vmem, ⟨5, _⟩ => ⟨S32x128, .bf16⟩
  | .local _ .vmem, ⟨6, _⟩ => ⟨S1x128, .f32⟩
  | .local _ .vmem, ⟨7, _⟩ => ⟨S8000x128, .f32⟩
  | .local _ .vmem, ⟨8, _⟩ => ⟨S8000x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  slices_S160x128_S128x128_0_0 : S160x128.Slices ![0, 0] S128x128
  slices_S160x128_S32x128_128_0 : S160x128.Slices ![128, 0] S32x128
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  dot_S8000x128_S128x128_S8000x128_1_0_0_1_n_n_wf : DotDims.WF S8000x128 S128x128 S8000x128 [1] [0] [0] [1] [] []
  dot_S8000x32_S32x128_S8000x128_1_0_0_1_n_n_wf : DotDims.WF S8000x32 S32x128 S8000x128 [1] [0] [0] [1] [] []
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .bf16 = 32 ∨ (Rect.block (s := S1600000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .bf16 = 32 ∨ (Rect.block (s := S1600000x32) S8000x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .bf16 = 32 ∨ (Rect.block (s := S32x128) S32x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S1600000x128.size a
  hwx0_5 : ∀ i : grid0.Coords, EltTy.bits .f32 = 32 ∨ (Rect.block (s := S1600000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v17) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S128x128 : Shape := ⟨2, ![128, 128]⟩
abbrev S128 : Shape := ⟨1, ![128]⟩
abbrev S160x128 : Shape := ⟨2, ![160, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x160 : Shape := ⟨2, ![1600000, 160]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x128, .f32⟩
  | .hbm, ⟨4, _⟩ => ⟨S128, .f32⟩
  | .hbm, ⟨5, _⟩ => ⟨S160x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x160, .f32⟩
  | .hbm, ⟨21, _⟩ => ⟨S1600000x128, .f32⟩
  | .hbm, ⟨22, _⟩ => ⟨S1x128, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x32_S1600000x160_d1 : Shape.Concatenates [S1600000x128, S1600000x32] S1600000x160 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  dot_S1600000x160_S160x128_S1600000x128_1_0_0_1_n_n_wf : DotDims.WF S1600000x160 S160x128 S1600000x128 [1] [0] [0] [1] [] []
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel program's run with its result array named.

  The program is four segments: host operations, the edge-message region, host operations (the scatter-add of the
  messages), the node-update region.  The buffer contents at the last boundary are `Gen.W4`; every unscoped buffer
  of the final state holds those contents.  Read at the result buffer this says the program's result is what the
  node-update region's write-backs leave in its output array; read at an argument it says the argument is as
  launched.
-/
import proofs.«103146_j35373350650219_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the node-update region's output array (its window 4). -/
theorem W4_result (c : Dev nD) :
    W4 m ρ c (Proc.devRef .tc main_v24) = (dat1 (V3 m ρ) c).arrAt 4 cfg1.N :=
  W4_arr m ρ c 4

set_option backward.isDefEq.respectTransparency.types false in
/-- Every weakly fair execution of the program terminates without a fault; in the final state the result buffer holds
    the last boundary's contents and every argument is as launched. -/
theorem run_result : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Whole

end
-- ==== Proof.Spec.lean ====
/-
  The two layers of the graph convolution as whole-array functions on the extended reals.

  `msg`: the message of edge e is the gathered source-node row times the upper 128 rows of the message weights, plus
  the edge-attribute row times the lower 32 rows, plus the bias row:
      msg(e, q) = (Σ_{k<128} h(e, k) · wh(k, q) + Σ_{k<32} a(e, k) · we(k, q)) + b(0, q).
  `upd`: the new feature of node n is the rectified sum of its own row times the self weights, the bias row and the
  aggregated messages:
      upd(n, q) = max ((Σ_{k<128} x(n, k) · w(k, q) + b(0, q)) + agg(n, q)) 0.
  Both are stated for any number of rows, so that the same function describes one block of rows and the whole array.
  `sum_split`: a sum over 160 terms is the sum of its first 128 and its last 32 terms; only commutativity and
  associativity of the addition are used, so no finiteness is needed.
-/
import Idealize.ShloMosaic.PureOps.Ideal.Laws
import Idealize.ShloMosaic.Lib.ValueIdx

noncomputable section

namespace Cert.GraphConv

open Idealize.ShloMosaic Idealize.ShloMosaic.ValueIdx

/-- The edge messages, entry by entry. -/
def msg {E : ℕ} (h : (⟨2, ![E, 128]⟩ : Shape).Idx → EReal) (a : (⟨2, ![E, 32]⟩ : Shape).Idx → EReal)
    (wh : (⟨2, ![128, 128]⟩ : Shape).Idx → EReal) (we : (⟨2, ![32, 128]⟩ : Shape).Idx → EReal)
    (b : (⟨2, ![1, 128]⟩ : Shape).Idx → EReal) : (⟨2, ![E, 128]⟩ : Shape).Idx → EReal :=
  fun i => (∑ k : Fin 128, h (ix2 (i 0) k) * wh (ix2 k (i 1)) + ∑ k : Fin 32, a (ix2 (i 0) k) * we (ix2 k (i 1)))
    + b (ix2 (0 : Fin 1) (i 1))

theorem msg_apply {E : ℕ} (h : (⟨2, ![E, 128]⟩ : Shape).Idx → EReal) (a : (⟨2, ![E, 32]⟩ : Shape).Idx → EReal)
    (wh : (⟨2, ![128, 128]⟩ : Shape).Idx → EReal) (we : (⟨2, ![32, 128]⟩ : Shape).Idx → EReal)
    (b : (⟨2, ![1, 128]⟩ : Shape).Idx → EReal) (p : Fin E) (q : Fin 128) :
    msg h a wh we b (ix2 p q)
      = (∑ k : Fin 128, h (ix2 p k) * wh (ix2 k q) + ∑ k : Fin 32, a (ix2 p k) * we (ix2 k q)) + b (ix2 (0 : Fin 1) q) := rfl

/-- The node update, entry by entry. -/
def upd {N : ℕ} (x : (⟨2, ![N, 128]⟩ : Shape).Idx → EReal) (agg : (⟨2, ![N, 128]⟩ : Shape).Idx → EReal)
    (w : (⟨2, ![128, 128]⟩ : Shape).Idx → EReal) (b : (⟨2, ![1, 128]⟩ : Shape).Idx → EReal) :
    (⟨2, ![N, 128]⟩ : Shape).Idx → EReal :=
  fun i => max ((∑ k : Fin 128, x (ix2 (i 0) k) * w (ix2 k (i 1)) + b (ix2 (0 : Fin 1) (i 1))) + agg (ix2 (i 0) (i 1)))
    (Ideal.ofBits .f32 0x00000000#32)

theorem upd_apply {N : ℕ} (x : (⟨2, ![N, 128]⟩ : Shape).Idx → EReal) (agg : (⟨2, ![N, 128]⟩ : Shape).Idx → EReal)
    (w : (⟨2, ![128, 128]⟩ : Shape).Idx → EReal) (b : (⟨2, ![1, 128]⟩ : Shape).Idx → EReal) (p : Fin N) (q : Fin 128) :
    upd x agg w b (ix2 p q)
      = max ((∑ k : Fin 128, x (ix2 p k) * w (ix2 k q) + b (ix2 (0 : Fin 1) q)) + agg (ix2 p q))
          (Ideal.ofBits .f32 0x00000000#32) := rfl

/-- A block of rows of the messages: if the block's gathered rows and attribute rows are rows `T·R + p` of the arrays,
    the messages of the block are rows `T·R + p` of the messages of the arrays. -/
theorem msg_block {E R : ℕ} (H : (⟨2, ![E, 128]⟩ : Shape).Idx → EReal) (A : (⟨2, ![E, 32]⟩ : Shape).Idx → EReal)
    (wh : (⟨2, ![128, 128]⟩ : Shape).Idx → EReal) (we : (⟨2, ![32, 128]⟩ : Shape).Idx → EReal)
    (b : (⟨2, ![1, 128]⟩ : Shape).Idx → EReal)
    (h : (⟨2, ![R, 128]⟩ : Shape).Idx → EReal) (a : (⟨2, ![R, 32]⟩ : Shape).Idx → EReal) (T : ℕ)
    (hh : ∀ (p : Fin R) (k : Fin 128) (r : Fin E), r.val = T * R + p.val → h (ix2 p k) = H (ix2 r k))
    (ha : ∀ (p : Fin R) (k : Fin 32) (r : Fin E), r.val = T * R + p.val → a (ix2 p k) = A (ix2 r k))
    (p : Fin R) (q : Fin 128) (r : Fin E) (hr : r.val = T * R + p.val) :
    msg h a wh we b (ix2 p q) = msg H A wh we b (ix2 r q) := by
  rw [msg_apply, msg_apply]
  refine congrArg₂ (· + ·) (congrArg₂ (· + ·) ?_ ?_) rfl
  · exact Finset.sum_congr rfl fun k _ => by rw [hh p k r hr]
  · exact Finset.sum_congr rfl fun k _ => by rw [ha p k r hr]

/-- A block of rows of the node update, in the same way. -/
theorem upd_block {N R : ℕ} (X : (⟨2, ![N, 128]⟩ : Shape).Idx → EReal) (G : (⟨2, ![N, 128]⟩ : Shape).Idx → EReal)
    (w : (⟨2, ![128, 128]⟩ : Shape).Idx → EReal) (b : (⟨2, ![1, 128]⟩ : Shape).Idx → EReal)
    (x : (⟨2, ![R, 128]⟩ : Shape).Idx → EReal) (g : (⟨2, ![R, 128]⟩ : Shape).Idx → EReal) (T : ℕ)
    (hx : ∀ (p : Fin R) (k : Fin 128) (r : Fin N), r.val = T * R + p.val → x (ix2 p k) = X (ix2 r k))
    (hg : ∀ (p : Fin R) (k : Fin 128) (r : Fin N), r.val = T * R + p.val → g (ix2 p k) = G (ix2 r k))
    (p : Fin R) (q : Fin 128) (r : Fin N) (hr : r.val = T * R + p.val) :
    upd x g w b (ix2 p q) = upd X G w b (ix2 r q) := by
  rw [upd_apply, upd_apply, hg p q r hr]
  refine congrArg₂ max (congrArg₂ (· + ·) (congrArg₂ (· + ·) ?_ rfl) rfl) rfl
  exact Finset.sum_congr rfl fun k _ => by rw [hx p k r hr]

/-- A sum over 160 terms is the sum of its first 128 and its last 32 terms. -/
theorem sum_split {M : Type*} [AddCommMonoid M] (f : Fin 160 → M) :
    ∑ k : Fin 160, f k
      = ∑ k : Fin 128, f ⟨k.val, by have := k.isLt; omega⟩ + ∑ k : Fin 32, f ⟨128 + k.val, by have := k.isLt; omega⟩ := by
  have h := Fin.sum_univ_add (a := 128) (b := 32) (fun i : Fin (128 + 32) => f i)
  refine h.trans ?_
  rfl

end Cert.GraphConv

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.Pay.lean ====
/-
  The two kernel bodies as functions of the blocks they load.

  The edge-message body loads a block of gathered rows, a block of edge attributes, the two weight matrices and the
  bias row, and stores two matrix products into zero accumulators, added, plus the bias row broadcast over the rows:
  entry by entry that is `msg` of the loaded blocks.  The node-update body stores the rectified sum of one product,
  the bias row and the aggregate block: `upd` of the loaded blocks.  A change of float format is the identity on
  the extended reals, so the bf16 blocks enter as they are.
-/
import proofs.«103146_j35373350650219_2_alg».proof.Proof.Gen.KernelIdeal.Frame
import proofs.«103146_j35373350650219_2_alg».proof.Proof.Spec
import proofs.«103146_j35373350650219_2_alg».proof.Proof.LibPlainMatmul
import Idealize.ShloMosaic.Lib.Pipeline.Value
import Idealize.ShloMosaic.Lib.ValueLayout

noncomputable section

namespace Cert.KernelIdeal.Whole

open Cert.KernelIdeal Cert.KernelIdeal.Gen Cert.GraphConv
open Idealize.ShloMosaic Idealize.ShloMosaic.ValueIdx

theorem hz : (![0, 0] : Fin 2 → Nat) = fun _ => 0 := funext fun a => by fin_cases a <;> rfl

/-- What the edge-message body stores is `msg` of its loaded blocks. -/
theorem pay0_eq (x0 : Vec Ideal S8000x128 .bf16) (x1 : Vec Ideal S8000x32 .bf16) (x2 : Vec Ideal S128x128 .bf16)
    (x3 : Vec Ideal S32x128 .bf16) (x4 : Vec Ideal S1x128 .f32) :
    k0_pay1 (F := Ideal) x0 x1 x2 x3 x4 = msg x0 x1 x2 x3 x4 := by
  funext i
  obtain ⟨p, q, rfl⟩ : ∃ (p : Fin 8000) (q : Fin 128), i = ix2 p q := ⟨i 0, i 1, eq_ix2 i⟩
  unfold k0_pay1
  simp only [shapeCast_self]
  rw [msg_apply]
  show (FloatOps.matmul (F := Ideal) dot_S8000x128_S128x128_S8000x128_1_0_0_1_n_n none x0 x2 (constant (F := Ideal) S8000x128 .f32 0x00000000#32) (ix2 p q)
        + FloatOps.matmul (F := Ideal) dot_S8000x32_S32x128_S8000x128_1_0_0_1_n_n none x1 x3 (constant (F := Ideal) S8000x128 .f32 0x00000000#32) (ix2 p q))
      + broadcastTo S8000x128 x4 broadcasts_S1x128_S8000x128 (ix2 p q) = _
  rw [broadcastTo_1b_ab_apply x4 broadcasts_S1x128_S8000x128 p q]
  refine congrArg₂ (· + ·) (congrArg₂ (· + ·) ?_ ?_) rfl
  · exact Cert.PlainMatmul.matmul_zero_apply (m := 8000) (K := 128) (n := 128) Facts₀.dot_S8000x128_S128x128_S8000x128_1_0_0_1_n_n_wf none x0 x2 p q
  · exact Cert.PlainMatmul.matmul_zero_apply (m := 8000) (K := 32) (n := 128) Facts₀.dot_S8000x32_S32x128_S8000x128_1_0_0_1_n_n_wf none x1 x3 p q

/-- What the node-update body stores is `upd` of its loaded blocks. -/
theorem pay1_eq (x0 : Vec Ideal S5000x128 .bf16) (x2 : Vec Ideal S128x128 .bf16) (x3 : Vec Ideal S1x128 .f32)
    (x1 : Vec Ideal S5000x128 .f32) :
    k1_pay1 (F := Ideal) x0 x2 x3 x1 = upd x0 x1 x2 x3 := by
  funext i
  obtain ⟨p, q, rfl⟩ : ∃ (p : Fin 5000) (q : Fin 128), i = ix2 p q := ⟨i 0, i 1, eq_ix2 i⟩
  unfold k1_pay1
  simp only [shapeCast_self]
  rw [upd_apply]
  show max ((FloatOps.matmul (F := Ideal) dot_S5000x128_S128x128_S5000x128_1_0_0_1_n_n none x0 x2 (constant (F := Ideal) S5000x128 .f32 0x00000000#32) (ix2 p q)
        + broadcastTo S5000x128 x3 broadcasts_S1x128_S5000x128 (ix2 p q)) + x1 (ix2 p q)) (Ideal.ofBits .f32 0x00000000#32) = _
  rw [broadcastTo_1b_ab_apply x3 broadcasts_S1x128_S5000x128 p q]
  refine congrArg₂ max (congrArg₂ (· + ·) (congrArg₂ (· + ·) ?_ rfl) rfl) rfl
  exact Cert.PlainMatmul.matmul_zero_apply (m := 5000) (K := 128) (n := 128) Facts₀.dot_S5000x128_S128x128_S5000x128_1_0_0_1_n_n_wf none x0 x2 p q

/-- The edge-message region's output buffer after the body, from the blocks. -/
theorem out0_eq (x0 : Vec Ideal S8000x128 .bf16) (x1 : Vec Ideal S8000x32 .bf16) (x2 : Vec Ideal S128x128 .bf16)
    (x3 : Vec Ideal S32x128 .bf16) (x4 : Vec Ideal S1x128 .f32) :
    out0_5 (F := Ideal) x0 x1 x2 x3 x4 = msg x0 x1 x2 x3 x4 := by
  unfold out0_5
  rw [View.canon_unit_zero hz]
  simp only [View.ld_unit_zero (S := S8000x128) hz, View.ld_unit_zero (S := S8000x32) hz,
    View.ld_unit_zero (S := S128x128) hz, View.ld_unit_zero (S := S32x128) hz, View.ld_unit_zero (S := S1x128) hz]
  exact pay0_eq x0 x1 x2 x3 x4

/-- The node-update region's output buffer after the body, from the blocks. -/
theorem out1_eq (x0 : Vec Ideal S5000x128 .bf16) (x1 : Vec Ideal S5000x128 .f32) (x2 : Vec Ideal S128x128 .bf16)
    (x3 : Vec Ideal S1x128 .f32) :
    out1_4 (F := Ideal) x0 x1 x2 x3 = upd x0 x1 x2 x3 := by
  unfold out1_4
  rw [View.canon_unit_zero hz]
  simp only [View.ld_unit_zero (S := S5000x128) hz, View.ld_unit_zero (S := S128x128) hz, View.ld_unit_zero (S := S1x128) hz]
  exact pay1_eq x0 x2 x3 x1

end Cert.KernelIdeal.Whole

end
-- ==== Proof.Blocks0.lean ====
/-
  The edge-message region's output array after its write-backs, for any contents `V` of the buffers at region entry.

  The grid has 200 points.  At point t the region stages rows 8000·t … 8000·t + 7999 of the gathered rows and of the
  edge attributes, the whole of the two weight matrices and of the bias row, and writes back rows 8000·t … 8000·t + 7999
  of the output.  What point t writes back is therefore block t of `msg` of the arrays, the 200 blocks cover the
  output array, and the array ends as `msg` of the arrays.
-/
import proofs.«103146_j35373350650219_2_alg».proof.Proof.Pay

set_option maxRecDepth 16384

noncomputable section

namespace Cert.KernelIdeal.Whole

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-blocked windows are at block (t, 0), the others at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of gathered rows at point t is rows 8000·t + p of the array. -/
theorem blk0_0 (c : Dev nD) (t : Fin cfg0.N) (p : Fin 8000) (k : Fin 128) (r : Fin 1600000) (hr : r.val = t.val * 8000 + p.val) :
    (iblk0 V c 0 t : Vec Ideal S8000x128 .bf16) (ix2 p k) = (V c main_v17 : S1600000x128.Idx → EReal) (ix2 r k) := by
  unfold iblk0
  rw [View.read_apply]
  show V c main_v17 _ = V c main_v17 _
  refine congrArg _ ?_
  funext a
  apply Fin.ext
  match a with
  | ⟨0, _⟩ => show win0_0.index t (0 : Fin 2) * 8000 + 1 * p.val = r.val; rw [(idx_facts0 t).1, hr]; omega
  | ⟨1, _⟩ => show win0_0.index t (1 : Fin 2) * 128 + 1 * k.val = k.val; rw [(idx_facts0 t).2.1]; omega

/-- The block of edge attributes at point t is rows 8000·t + p of the array. -/
theorem blk0_1 (c : Dev nD) (t : Fin cfg0.N) (p : Fin 8000) (k : Fin 32) (r : Fin 1600000) (hr : r.val = t.val * 8000 + p.val) :
    (iblk0 V c 1 t : Vec Ideal S8000x32 .bf16) (ix2 p k) = (V c main_v5 : S1600000x32.Idx → EReal) (ix2 r k) := by
  unfold iblk0
  rw [View.read_apply]
  show V c main_v5 _ = V c main_v5 _
  refine congrArg _ ?_
  funext a
  apply Fin.ext
  match a with
  | ⟨0, _⟩ => show win0_1.index t (0 : Fin 2) * 8000 + 1 * p.val = r.val; rw [(idx_facts0 t).2.2.1, hr]; omega
  | ⟨1, _⟩ => show win0_1.index t (1 : Fin 2) * 32 + 1 * k.val = k.val; rw [(idx_facts0 t).2.2.2.1]; omega

/-- The upper weight block is the whole array at every point. -/
theorem blk0_2 (c : Dev nD) (t : Fin cfg0.N) :
    (iblk0 V c 2 t : Vec Ideal S128x128 .bf16) = (V c main_v7 : S128x128.Idx → EReal) := by
  funext y
  unfold iblk0
  rw [View.read_apply]
  show V c main_v7 _ = V c main_v7 _
  refine congrArg _ ?_
  funext a
  apply Fin.ext
  match a with
  | ⟨0, _⟩ => show win0_2.index t (0 : Fin 2) * 128 + 1 * (y 0).val = (y 0).val; rw [(idx_facts0 t).2.2.2.2.1]; omega
  | ⟨1, _⟩ => show win0_2.index t (1 : Fin 2) * 128 + 1 * (y 1).val = (y 1).val; rw [(idx_facts0 t).2.2.2.2.2.1]; omega

/-- The lower weight block is the whole array at every point. -/
theorem blk0_3 (c : Dev nD) (t : Fin cfg0.N) :
    (iblk0 V c 3 t : Vec Ideal S32x128 .bf16) = (V c main_v9 : S32x128.Idx → EReal) := by
  funext y
  unfold iblk0
  rw [View.read_apply]
  show V c main_v9 _ = V c main_v9 _
  refine congrArg _ ?_
  funext a
  apply Fin.ext
  match a with
  | ⟨0, _⟩ => show win0_3.index t (0 : Fin 2) * 32 + 1 * (y 0).val = (y 0).val; rw [(idx_facts0 t).2.2.2.2.2.2.1]; omega
  | ⟨1, _⟩ => show win0_3.index t (1 : Fin 2) * 128 + 1 * (y 1).val = (y 1).val; rw [(idx_facts0 t).2.2.2.2.2.2.2.1]; omega

/-- The bias block is the whole row at every point. -/
theorem blk0_4 (c : Dev nD) (t : Fin cfg0.N) :
    (iblk0 V c 4 t : Vec Ideal S1x128 .f32) = (V c main_v18 : S1x128.Idx → EReal) := by
  funext y
  unfold iblk0
  rw [View.read_apply]
  show V c main_v18 _ = V c main_v18 _
  refine congrArg _ ?_
  funext a
  apply Fin.ext
  match a with
  | ⟨0, _⟩ => show win0_4.index t (0 : Fin 2) * 1 + 1 * (y 0).val = (y 0).val; rw [(idx_facts0 t).2.2.2.2.2.2.2.2.1]; omega
  | ⟨1, _⟩ => show win0_4.index t (1 : Fin 2) * 128 + 1 * (y 1).val = (y 1).val; rw [(idx_facts0 t).2.2.2.2.2.2.2.2.2.1]; omega

/-- The messages of the arrays as the region finds them. -/
abbrev msgOf (c : Dev nD) : S1600000x128.Idx → EReal :=
  msg (V c main_v17 : S1600000x128.Idx → EReal) (V c main_v5 : S1600000x32.Idx → EReal) (V c main_v7 : S128x128.Idx → EReal)
    (V c main_v9 : S32x128.Idx → EReal) (V c main_v18 : S1x128.Idx → EReal)

/-- What point t writes back is block t of the messages of the arrays. -/
theorem flushed0_eq (c : Dev nD) (t : Fin cfg0.N) :
    (dat0 V c).flushed 5 t = ((cfg0.win 5).blk t).view.read (Elt Ideal) (msgOf V c) := by
  show (cfg0.win 5).cut (grid0.coords t) ((dat0 V c).after 5 t) = _
  rw [after0_5, out0_eq, blk0_2, blk0_3, blk0_4]
  funext y
  have hy : y = ix2 (n0 := 8000) (n1 := 128) (y 0) (y 1) := eq_ix2 y
  have h0 : (y 0).val < 8000 := (y 0).isLt
  have ht : t.val < 200 := lt_of_lt_of_eq t.isLt N_0
  have he : ((cfg0.win 5).blk t).view.emb y = ix2 (n0 := 1600000) (n1 := 128) ⟨t.val * 8000 + (y 0).val, by omega⟩ (y 1) := by
    funext a
    apply Fin.ext
    match a with
    | ⟨0, _⟩ => show win0_5.index t (0 : Fin 2) * 8000 + 1 * (y 0).val = t.val * 8000 + (y 0).val; rw [(idx_facts0 t).2.2.2.2.2.2.2.2.2.2.1]; omega
    | ⟨1, _⟩ => show win0_5.index t (1 : Fin 2) * 128 + 1 * (y 1).val = (y 1).val; rw [(idx_facts0 t).2.2.2.2.2.2.2.2.2.2.2]; omega
  show msg (iblk0 V c 0 t : Vec Ideal S8000x128 .bf16) (iblk0 V c 1 t : Vec Ideal S8000x32 .bf16)
        (V c main_v7 : S128x128.Idx → EReal) (V c main_v9 : S32x128.Idx → EReal) (V c main_v18 : S1x128.Idx → EReal) y
      = msgOf V c (((cfg0.win 5).blk t).view.emb y)
  refine (congrArg (msg (iblk0 V c 0 t : Vec Ideal S8000x128 .bf16) (iblk0 V c 1 t : Vec Ideal S8000x32 .bf16)
        (V c main_v7 : S128x128.Idx → EReal) (V c main_v9 : S32x128.Idx → EReal) (V c main_v18 : S1x128.Idx → EReal)) hy).trans ?_
  refine Eq.trans ?_ (congrArg (msgOf V c) he).symm
  exact msg_block _ _ _ _ _ _ _ t.val (fun p k r hr => blk0_0 V c t p k r hr) (fun p k r hr => blk0_1 V c t p k r hr)
    (y 0) (y 1) _ rfl

/-- An index of the output array is in point t's block iff each coordinate is in the block's range. -/
theorem mem_blk0 (t : Fin cfg0.N) (i : S1600000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v19).slice (win0_5.rect t)).set ↔ _
  rw [View.set_slice_whole, Rect.mem_set_unit]
  exact Iff.rfl

/-- Every row of the output array is in the block of the point its row number divided by 8000 names. -/
theorem cover0 (i : S1600000x128.Idx) :
    ∃ t : Fin cfg0.N, (cfg0.win 5).flush t = true ∧ i ∈ ((cfg0.win 5).blk t).view.set := by
  have hi0 : (i 0).val < 1600000 := (i 0).isLt
  have hi1 : (i 1).val < 128 := (i 1).isLt
  have hN : cfg0.N = 200 := N_0
  let t : Fin cfg0.N := ⟨(i 0).val / 8000, lt_of_lt_of_eq (by omega : (i 0).val / 8000 < 200) hN.symm⟩
  have ht : t.val = (i 0).val / 8000 := rfl
  refine ⟨t, flush0_5 t, ?_⟩
  rw [mem_blk0]
  intro a
  match a with
  | ⟨0, _⟩ =>
    show win0_5.index t (0 : Fin 2) * 8000 ≤ (i 0).val ∧ (i 0).val < win0_5.index t (0 : Fin 2) * 8000 + 8000
    rw [(idx_facts0 t).2.2.2.2.2.2.2.2.2.2.1, ht]; omega
  | ⟨1, _⟩ =>
    show win0_5.index t (1 : Fin 2) * 128 ≤ (i 1).val ∧ (i 1).val < win0_5.index t (1 : Fin 2) * 128 + 128
    rw [(idx_facts0 t).2.2.2.2.2.2.2.2.2.2.2]; omega

/-- After the region's write-backs its output array holds the messages of the arrays it found. -/
theorem final0 (c : Dev nD) : (dat0 V c).arrAt 5 cfg0.N = msgOf V c :=
  (dat0 V c).arrAt_eq_of_cover 5 (msgOf V c) (fun t _ => flushed0_eq V c t) (cover0)

end Cert.KernelIdeal.Whole

end
-- ==== Proof.Blocks1.lean ====
/-
  The node-update region's output array after its write-backs, for any contents `V` of the buffers at region entry.

  The grid has 20 points.  At point t the region stages rows 5000·t … 5000·t + 4999 of the node features and of the
  aggregate, the whole of the self weights and of the bias row, and writes back rows 5000·t … 5000·t + 4999 of the
  output.  What point t writes back is block t of `upd` of the arrays, the 20 blocks cover the output array, and the
  array ends as `upd` of the arrays.
-/
import proofs.«103146_j35373350650219_2_alg».proof.Proof.Pay

set_option maxRecDepth 16384

noncomputable section

namespace Cert.KernelIdeal.Whole

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-blocked windows are at block (t, 0), the others at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of node features at point t is rows 5000·t + p of the array. -/
theorem blk1_0 (c : Dev nD) (t : Fin cfg1.N) (p : Fin 5000) (k : Fin 128) (r : Fin 100000) (hr : r.val = t.val * 5000 + p.val) :
    (iblk1 V c 0 t : Vec Ideal S5000x128 .bf16) (ix2 p k) = (V c main_v4 : S100000x128.Idx → EReal) (ix2 r k) := by
  unfold iblk1
  rw [View.read_apply]
  show V c main_v4 _ = V c main_v4 _
  refine congrArg _ ?_
  funext a
  apply Fin.ext
  match a with
  | ⟨0, _⟩ => show win1_0.index t (0 : Fin 2) * 5000 + 1 * p.val = r.val; rw [(idx_facts1 t).1, hr]; omega
  | ⟨1, _⟩ => show win1_0.index t (1 : Fin 2) * 128 + 1 * k.val = k.val; rw [(idx_facts1 t).2.1]; omega

/-- The block of the aggregate at point t is rows 5000·t + p of the array. -/
theorem blk1_1 (c : Dev nD) (t : Fin cfg1.N) (p : Fin 5000) (k : Fin 128) (r : Fin 100000) (hr : r.val = t.val * 5000 + p.val) :
    (iblk1 V c 1 t : Vec Ideal S5000x128 .f32) (ix2 p k) = (V c main_v22 : S100000x128.Idx → EReal) (ix2 r k) := by
  unfold iblk1
  rw [View.read_apply]
  show V c main_v22 _ = V c main_v22 _
  refine congrArg _ ?_
  funext a
  apply Fin.ext
  match a with
  | ⟨0, _⟩ => show win1_1.index t (0 : Fin 2) * 5000 + 1 * p.val = r.val; rw [(idx_facts1 t).2.2.1, hr]; omega
  | ⟨1, _⟩ => show win1_1.index t (1 : Fin 2) * 128 + 1 * k.val = k.val; rw [(idx_facts1 t).2.2.2.1]; omega

/-- The weight block is the whole array at every point. -/
theorem blk1_2 (c : Dev nD) (t : Fin cfg1.N) :
    (iblk1 V c 2 t : Vec Ideal S128x128 .bf16) = (V c main_v10 : S128x128.Idx → EReal) := by
  funext y
  unfold iblk1
  rw [View.read_apply]
  show V c main_v10 _ = V c main_v10 _
  refine congrArg _ ?_
  funext a
  apply Fin.ext
  match a with
  | ⟨0, _⟩ => show win1_2.index t (0 : Fin 2) * 128 + 1 * (y 0).val = (y 0).val; rw [(idx_facts1 t).2.2.2.2.1]; omega
  | ⟨1, _⟩ => show win1_2.index t (1 : Fin 2) * 128 + 1 * (y 1).val = (y 1).val; rw [(idx_facts1 t).2.2.2.2.2.1]; omega

/-- The bias block is the whole row at every point. -/
theorem blk1_3 (c : Dev nD) (t : Fin cfg1.N) :
    (iblk1 V c 3 t : Vec Ideal S1x128 .f32) = (V c main_v23 : S1x128.Idx → EReal) := by
  funext y
  unfold iblk1
  rw [View.read_apply]
  show V c main_v23 _ = V c main_v23 _
  refine congrArg _ ?_
  funext a
  apply Fin.ext
  match a with
  | ⟨0, _⟩ => show win1_3.index t (0 : Fin 2) * 1 + 1 * (y 0).val = (y 0).val; rw [(idx_facts1 t).2.2.2.2.2.2.1]; omega
  | ⟨1, _⟩ => show win1_3.index t (1 : Fin 2) * 128 + 1 * (y 1).val = (y 1).val; rw [(idx_facts1 t).2.2.2.2.2.2.2.1]; omega

/-- The node update of the arrays as the region finds them. -/
abbrev updOf (c : Dev nD) : S100000x128.Idx → EReal :=
  upd (V c main_v4 : S100000x128.Idx → EReal) (V c main_v22 : S100000x128.Idx → EReal) (V c main_v10 : S128x128.Idx → EReal)
    (V c main_v23 : S1x128.Idx → EReal)

/-- What point t writes back is block t of the node update of the arrays. -/
theorem flushed1_eq (c : Dev nD) (t : Fin cfg1.N) :
    (dat1 V c).flushed 4 t = ((cfg1.win 4).blk t).view.read (Elt Ideal) (updOf V c) := by
  show (cfg1.win 4).cut (grid1.coords t) ((dat1 V c).after 4 t) = _
  rw [after1_4, out1_eq, blk1_2, blk1_3]
  funext y
  have hy : y = ix2 (n0 := 5000) (n1 := 128) (y 0) (y 1) := eq_ix2 y
  have h0 : (y 0).val < 5000 := (y 0).isLt
  have ht : t.val < 20 := lt_of_lt_of_eq t.isLt N_1
  have he : ((cfg1.win 4).blk t).view.emb y = ix2 (n0 := 100000) (n1 := 128) ⟨t.val * 5000 + (y 0).val, by omega⟩ (y 1) := by
    funext a
    apply Fin.ext
    match a with
    | ⟨0, _⟩ => show win1_4.index t (0 : Fin 2) * 5000 + 1 * (y 0).val = t.val * 5000 + (y 0).val; rw [(idx_facts1 t).2.2.2.2.2.2.2.2.1]; omega
    | ⟨1, _⟩ => show win1_4.index t (1 : Fin 2) * 128 + 1 * (y 1).val = (y 1).val; rw [(idx_facts1 t).2.2.2.2.2.2.2.2.2]; omega
  show upd (iblk1 V c 0 t : Vec Ideal S5000x128 .bf16) (iblk1 V c 1 t : Vec Ideal S5000x128 .f32)
        (V c main_v10 : S128x128.Idx → EReal) (V c main_v23 : S1x128.Idx → EReal) y
      = updOf V c (((cfg1.win 4).blk t).view.emb y)
  refine (congrArg (upd (iblk1 V c 0 t : Vec Ideal S5000x128 .bf16) (iblk1 V c 1 t : Vec Ideal S5000x128 .f32)
        (V c main_v10 : S128x128.Idx → EReal) (V c main_v23 : S1x128.Idx → EReal)) hy).trans ?_
  refine Eq.trans ?_ (congrArg (updOf V c) he).symm
  exact upd_block _ _ _ _ _ _ t.val (fun p k r hr => blk1_0 V c t p k r hr) (fun p k r hr => blk1_1 V c t p k r hr)
    (y 0) (y 1) _ rfl

/-- An index of the output array is in point t's block iff each coordinate is in the block's range. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v24).slice (win1_4.rect t)).set ↔ _
  rw [View.set_slice_whole, Rect.mem_set_unit]
  exact Iff.rfl

/-- Every row of the output array is in the block of the point its row number divided by 5000 names. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, lt_of_lt_of_eq (by omega : (i 0).val / 5000 < 20) hN.symm⟩
  have ht : t.val = (i 0).val / 5000 := rfl
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    rw [(idx_facts1 t).2.2.2.2.2.2.2.2.1, ht]; omega
  | ⟨1, _⟩ =>
    show win1_4.index t (1 : Fin 2) * 128 ≤ (i 1).val ∧ (i 1).val < win1_4.index t (1 : Fin 2) * 128 + 128
    rw [(idx_facts1 t).2.2.2.2.2.2.2.2.2]; omega

/-- After the region's write-backs its output array holds the node update of the arrays it found. -/
theorem final1 (c : Dev nD) : (dat1 V c).arrAt 4 cfg1.N = updOf V c :=
  (dat1 V c).arrAt_eq_of_cover 4 (updOf V c) (fun t _ => flushed1_eq V c t) (cover1)

end Cert.KernelIdeal.Whole

end
-- ==== Proof.KVal.lean ====
/-
  The idealized kernel program's result as one function of its seven argument arrays.

  `srcIdx` / `dstIdx`: row 0 / row 1 of the edge index array as a column of start indices; a negative source index is
  moved up by the number of nodes first.  `kernelMsg`: the messages (`msg`) of the source rows gathered from the node
  features, the edge attributes, the upper 128 and the lower 32 rows of the message weights and the bias as a row.
  `kernelAgg`: the messages added into a zero array at the rows the destination indices name.  `kernelVal`: the node
  update (`upd`) of the features, the aggregate, the self weights and the self bias as a row.  The changes of float
  format the program makes on the way are the identity on the extended reals and are kept as written.
-/
import proofs.«103146_j35373350650219_2_alg».proof.KernelIdeal
import proofs.«103146_j35373350650219_2_alg».proof.Proof.Gen.KernelIdeal
import proofs.«103146_j35373350650219_2_alg».proof.Proof.Spec

noncomputable section

namespace Cert.KernelIdeal.Whole

open Cert.KernelIdeal Cert.KernelIdeal.Gen Cert.GraphConv
open Idealize.ShloMosaic Idealize.SL.Sem

/-- Row 0 of the edge index array, negative entries moved up by 100000, as a column of start indices. -/
def srcIdx (x1 : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi .slt (shapeCast _ (extractStridedSlice S1x1600000 ![0, 0] x1 slices_S2x1600000_S1x1600000_0_0) shapeCasts_S1x1600000_S1600000)
        (broadcastInDim S1600000 ![] bcast_S_S1600000 (constantI S_ 32 0#32)))
      (addi (shapeCast _ (extractStridedSlice S1x1600000 ![0, 0] x1 slices_S2x1600000_S1x1600000_0_0) shapeCasts_S1x1600000_S1600000)
        (broadcastInDim S1600000 ![] bcast_S_S1600000 (constantI S_ 32 100000#32)))
      (shapeCast _ (extractStridedSlice S1x1600000 ![0, 0] x1 slices_S2x1600000_S1x1600000_0_0) shapeCasts_S1x1600000_S1600000))

/-- Row 1 of the edge index array as a column of start indices. -/
def dstIdx (x1 : (⟨S2x1600000, .i32⟩ : BufTy).Contents (Elt Ideal)) : (⟨S1600000x1, .i32⟩ : BufTy).Contents (Elt Ideal) :=
  broadcastInDim S1600000x1 ![0] bcast_S1600000_S1600000x1_0
    (shapeCast _ (extractStridedSlice S1x1600000 ![1, 0] x1 slices_S2x1600000_S1x1600000_1_0) shapeCasts_S1x1600000_S1600000)

/-- The gathered source rows. -/
def kernelSrc (x0 : (⟨S100000x128, .f32⟩ : BufTy).Contents (Elt Ideal)) (x1 : (⟨S2x1600000, .i32⟩ : BufTy).Contents (Elt Ideal)) :
    (⟨S1600000x128, .bf16⟩ : BufTy).Contents (Elt Ideal) :=
  Host.gather gather_S100000x128_S1600000x1_S1600000x128_1_0_n_n_0_1_1128 (truncf (F := Ideal) .bf16 x0 bitsLt_bf16_f32) (srcIdx x1)

/-- The edge messages. -/
def kernelMsg (x0 : (⟨S100000x128, .f32⟩ : BufTy).Contents (Elt Ideal)) (x1 : (⟨S2x1600000, .i32⟩ : BufTy).Contents (Elt Ideal))
    (x2 : (⟨S1600000x32, .f32⟩ : BufTy).Contents (Elt Ideal)) (x5 : (⟨S160x128, .f32⟩ : BufTy).Contents (Elt Ideal))
    (x6 : (⟨S128, .f32⟩ : BufTy).Contents (Elt Ideal)) : (⟨S1600000x128, .f32⟩ : BufTy).Contents (Elt Ideal) :=
  msg (kernelSrc x0 x1 : S1600000x128.Idx → EReal)
    (truncf (F := Ideal) .bf16 x2 bitsLt_bf16_f32 : S1600000x32.Idx → EReal)
    (truncf (F := Ideal) .bf16 (extractStridedSlice S128x128 ![0, 0] x5 slices_S160x128_S128x128_0_0) bitsLt_bf16_f32 : S128x128.Idx → EReal)
    (truncf (F := Ideal) .bf16 (extractStridedSlice S32x128 ![128, 0] x5 slices_S160x128_S32x128_128_0) bitsLt_bf16_f32 : S32x128.Idx → EReal)
    (shapeCast _ x6 shapeCasts_S128_S1x128 : S1x128.Idx → EReal)

/-- The messages added up per destination node. -/
def kernelAgg (x0 : (⟨S100000x128, .f32⟩ : BufTy).Contents (Elt Ideal)) (x1 : (⟨S2x1600000, .i32⟩ : BufTy).Contents (Elt Ideal))
    (x2 : (⟨S1600000x32, .f32⟩ : BufTy).Contents (Elt Ideal)) (x5 : (⟨S160x128, .f32⟩ : BufTy).Contents (Elt Ideal))
    (x6 : (⟨S128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) (dstIdx x1) (kernelMsg x0 x1 x2 x5 x6)

/-- The program's result. -/
def kernelVal (x0 : (⟨S100000x128, .f32⟩ : BufTy).Contents (Elt Ideal)) (x1 : (⟨S2x1600000, .i32⟩ : BufTy).Contents (Elt Ideal))
    (x2 : (⟨S1600000x32, .f32⟩ : BufTy).Contents (Elt Ideal)) (x3 : (⟨S128x128, .f32⟩ : BufTy).Contents (Elt Ideal))
    (x4 : (⟨S128, .f32⟩ : BufTy).Contents (Elt Ideal)) (x5 : (⟨S160x128, .f32⟩ : BufTy).Contents (Elt Ideal))
    (x6 : (⟨S128, .f32⟩ : BufTy).Contents (Elt Ideal)) : (⟨S100000x128, .f32⟩ : BufTy).Contents (Elt Ideal) :=
  upd (truncf (F := Ideal) .bf16 x0 bitsLt_bf16_f32 : S100000x128.Idx → EReal) (kernelAgg x0 x1 x2 x5 x6 : S100000x128.Idx → EReal)
    (truncf (F := Ideal) .bf16 x3 bitsLt_bf16_f32 : S128x128.Idx → EReal) (shapeCast _ x4 shapeCasts_S128_S1x128 : S1x128.Idx → EReal)

end Cert.KernelIdeal.Whole

end
-- ==== Proof.KernelValue.lean ====
/-
  The idealized kernel program's result array is `kernelVal` of its argument arrays.

  The contents of each buffer a region stages are read off the host operations before it: the first region finds the
  gathered source rows, the edge attributes, the two halves of the message weights and the bias row, so its output
  array ends as `kernelMsg` of the arguments; the second region finds the node features, the scatter-add of those
  messages, the self weights and the self bias row, so its output array — the program's result — ends as `kernelVal`
  of the arguments.  No host operation and no region writes an argument.
-/
import proofs.«103146_j35373350650219_2_alg».proof.Proof.KRun
import proofs.«103146_j35373350650219_2_alg».proof.Proof.Blocks0
import proofs.«103146_j35373350650219_2_alg».proof.Proof.Blocks1
import proofs.«103146_j35373350650219_2_alg».proof.Proof.KVal
import Idealize.ShloMosaic.Lib.StableHlo.Run

set_option maxRecDepth 16384

noncomputable section

namespace Cert.KernelIdeal.Whole

open Cert.KernelIdeal Cert.KernelIdeal.Gen Cert.GraphConv
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-! ## What the edge-message region finds -/

theorem V1_v17 (c : Dev nD) : V1 m ρ c main_v17
    = kernelSrc (m ((c.tc : Thread nD τ).loc main_arg0)) (m ((c.tc : Thread nD τ).loc main_arg1)) := by
  show StableHlo.after hostOps0 (W0 m ρ c) (Proc.devRef .tc main_v17) = _
  after_results
  rfl

theorem V1_v5 (c : Dev nD) : V1 m ρ c main_v5
    = truncf (F := Ideal) .bf16 (m ((c.tc : Thread nD τ).loc main_arg2)) bitsLt_bf16_f32 := by
  show StableHlo.after hostOps0 (W0 m ρ c) (Proc.devRef .tc main_v5) = _
  after_results

theorem V1_v7 (c : Dev nD) : V1 m ρ c main_v7
    = truncf (F := Ideal) .bf16 (extractStridedSlice S128x128 ![0, 0] (m ((c.tc : Thread nD τ).loc main_arg5)) slices_S160x128_S128x128_0_0) bitsLt_bf16_f32 := by
  show StableHlo.after hostOps0 (W0 m ρ c) (Proc.devRef .tc main_v7) = _
  after_results

theorem V1_v9 (c : Dev nD) : V1 m ρ c main_v9
    = truncf (F := Ideal) .bf16 (extractStridedSlice S32x128 ![128, 0] (m ((c.tc : Thread nD τ).loc main_arg5)) slices_S160x128_S32x128_128_0) bitsLt_bf16_f32 := by
  show StableHlo.after hostOps0 (W0 m ρ c) (Proc.devRef .tc main_v9) = _
  after_results

theorem V1_v18 (c : Dev nD) : V1 m ρ c main_v18
    = shapeCast _ (m ((c.tc : Thread nD τ).loc main_arg6)) shapeCasts_S128_S1x128 := by
  show StableHlo.after hostOps0 (W0 m ρ c) (Proc.devRef .tc main_v18) = _
  after_results
  rfl

/-- The edge-message region's output array ends as the messages of the arguments. -/
theorem msg_value (c : Dev nD) : (dat0 (V1 m ρ) c).arrAt 5 cfg0.N
    = kernelMsg (m ((c.tc : Thread nD τ).loc main_arg0)) (m ((c.tc : Thread nD τ).loc main_arg1))
        (m ((c.tc : Thread nD τ).loc main_arg2)) (m ((c.tc : Thread nD τ).loc main_arg5)) (m ((c.tc : Thread nD τ).loc main_arg6)) := by
  rw [final0]
  unfold msgOf kernelMsg
  rw [V1_v17, V1_v5, V1_v7, V1_v9, V1_v18]

/-! ## What the node-update region finds -/

theorem W2_v3 (c : Dev nD) : W2 m ρ c (Proc.devRef .tc main_v3)
    = shapeCast _ (extractStridedSlice S1x1600000 ![1, 0] (m ((c.tc : Thread nD τ).loc main_arg1)) slices_S2x1600000_S1x1600000_1_0) shapeCasts_S1x1600000_S1600000 := by
  rw [W2_of_ne m ρ c main_v3 (by decide)]
  show StableHlo.after hostOps0 (W0 m ρ c) (Proc.devRef .tc main_v3) = _
  after_results
  rfl

theorem W2_v19 (c : Dev nD) : W2 m ρ c (Proc.devRef .tc main_v19)
    = kernelMsg (m ((c.tc : Thread nD τ).loc main_arg0)) (m ((c.tc : Thread nD τ).loc main_arg1))
        (m ((c.tc : Thread nD τ).loc main_arg2)) (m ((c.tc : Thread nD τ).loc main_arg5)) (m ((c.tc : Thread nD τ).loc main_arg6)) :=
  (W2_arr m ρ c 5).trans (msg_value m ρ c)

theorem V3_v4 (c : Dev nD) : V3 m ρ c main_v4
    = truncf (F := Ideal) .bf16 (m ((c.tc : Thread nD τ).loc main_arg0)) bitsLt_bf16_f32 := by
  show StableHlo.after hostOps1 (W2 m ρ c) (Proc.devRef .tc main_v4) = _
  after_results
  rw [W2_of_ne m ρ c main_v4 (by decide)]
  show StableHlo.after hostOps0 (W0 m ρ c) (Proc.devRef .tc main_v4) = _
  after_results

theorem V3_v10 (c : Dev nD) : V3 m ρ c main_v10
    = truncf (F := Ideal) .bf16 (m ((c.tc : Thread nD τ).loc main_arg3)) bitsLt_bf16_f32 := by
  show StableHlo.after hostOps1 (W2 m ρ c) (Proc.devRef .tc main_v10) = _
  after_results
  rw [W2_of_ne m ρ c main_v10 (by decide)]
  show StableHlo.after hostOps0 (W0 m ρ c) (Proc.devRef .tc main_v10) = _
  after_results

theorem W2_arg4 (c : Dev nD) : W2 m ρ c (Proc.devRef .tc main_arg4) = m ((c.tc : Thread nD τ).loc main_arg4) := by
  rw [W2_of_ne m ρ c main_arg4 (by decide)]
  show StableHlo.after hostOps0 (W0 m ρ c) (Proc.devRef .tc main_arg4) = _
  after_results

theorem V3_v23 (c : Dev nD) : V3 m ρ c main_v23
    = shapeCast _ (m ((c.tc : Thread nD τ).loc main_arg4)) shapeCasts_S128_S1x128 := by
  show StableHlo.after hostOps1 (W2 m ρ c) (Proc.devRef .tc main_v23) = _
  after_results
  rw [W2_arg4]
  rfl

theorem V3_v22 (c : Dev nD) : V3 m ρ c main_v22
    = kernelAgg (m ((c.tc : Thread nD τ).loc main_arg0)) (m ((c.tc : Thread nD τ).loc main_arg1))
        (m ((c.tc : Thread nD τ).loc main_arg2)) (m ((c.tc : Thread nD τ).loc main_arg5)) (m ((c.tc : Thread nD τ).loc main_arg6)) := by
  show StableHlo.after hostOps1 (W2 m ρ c) (Proc.devRef .tc main_v22) = _
  after_results
  rw [W2_v3, W2_v19]
  rfl

/-- The program's result buffer ends as `kernelVal` of the arguments. -/
theorem result_value (c : Dev nD) : W4 m ρ c (Proc.devRef .tc main_v24)
    = kernelVal (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  rw [W4_result, final1]
  unfold updOf kernelVal
  rw [V3_v4, V3_v22, V3_v10, V3_v23]

/-- Every weakly fair execution of the program terminates without a fault, with the result buffer at `kernelVal` of the
    arguments and the arguments as launched. -/
theorem run : θ_run defs (onTc (τ := τ) (main (F := Ideal))) ⟨m, fun _ => 0, ρ⟩ (fun r => ∀ c : Dev nD,
      r.2.mem ((c.tc : Thread nD τ).loc main_v24)
        = kernelVal (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_value m ρ c), (h c).2⟩) (run_result m ρ)

end Cert.KernelIdeal.Whole

end
-- ==== Proof.Bridge.lean ====
/-
  The kernel's result and the reference's result are the same function of the seven argument arrays, on the extended
  reals.

  The reference joins the gathered source rows and the edge attributes along the columns into one array with 160
  columns and contracts it once with all 160 rows of the message weights:
      ref(e, q) = Σ_{k<160} [h | a](e, k) · W(k, q) + b(q).
  The kernel contracts the gathered rows with rows 0..127 of the weights and the edge attributes with rows 128..159,
  and adds the two:
      msg(e, q) = (Σ_{k<128} h(e, k) · W(k, q) + Σ_{k<32} a(e, k) · W(128 + k, q)) + b(q).
  A sum over 160 terms is the sum of its first 128 and its last 32 terms (`sum_split`: commutativity and
  associativity of the addition only, so nothing has to be finite); column k < 128 of the joined array is column k of
  the gathered rows (`cat_left`), column 128 + k is column k of the edge attributes (`cat_right`); a cut of the weights
  along the rows from row o reads row o + k; a vector cast to a one-row matrix reads the vector at the column; and a
  change of float format is the identity on the extended reals. Term by term the two sums agree: `msg_eq`.

  The index columns, the gathered rows and the zero array are the same operations on both sides, and the two
  descriptions of the gather and of the scatter have the same fields, so the aggregates agree once the messages do:
  `agg_eq`. The node update is, on both sides, max ((Σ_{k<128} x(n, k) · w(k, q) + b(q)) + agg(n, q)) 0, entry by entry:
  `val_eq`.
-/
import proofs.«103146_j35373350650219_2_alg».proof.Proof.KVal
import proofs.«103146_j35373350650219_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Cert.KernelIdeal Cert.KernelIdeal.Whole

variable (x0 : (⟨S100000x128, .f32⟩ : BufTy).Contents (Elt Ideal)) (x1 : (⟨S2x1600000, .i32⟩ : BufTy).Contents (Elt Ideal)) (x2 : (⟨S1600000x32, .f32⟩ : BufTy).Contents (Elt Ideal)) (x3 : (⟨S128x128, .f32⟩ : BufTy).Contents (Elt Ideal)) (x4 : (⟨S128, .f32⟩ : BufTy).Contents (Elt Ideal)) (x5 : (⟨S160x128, .f32⟩ : BufTy).Contents (Elt Ideal)) (x6 : (⟨S128, .f32⟩ : BufTy).Contents (Elt Ideal))

/-! ## The joined array, column by column -/

open Cert.ReferenceIdeal.Read in
/-- Columns 0..127 of the joined array [gathered rows | edge attributes] are the gathered rows. -/
theorem cat_left (e : Fin 1600000) (k : Fin 128) (k' : Fin 160) (hk : k'.val = k.val) :
    val_main_v11 (F := Ideal) x0 x1 x2 (ValueIdx.ix2 e k') = val_main_v10 (F := Ideal) x0 x1 (ValueIdx.ix2 e k) := by
  unfold val_main_v11
  exact concatenate_pair_apply_left (t := ⟨2, ![1600000, 160]⟩) (s₁ := ⟨2, ![1600000, 128]⟩) (s₂ := ⟨2, ![1600000, 32]⟩)
    1 (val_main_v10 (F := Ideal) x0 x1) x2 _ (ValueIdx.ix2 e k') rfl (ValueIdx.ix2 e k)
    (fun b => match b with
      | ⟨0, _⟩ => rfl
      | ⟨1, _⟩ => hk.symm)

open Cert.ReferenceIdeal.Read in
/-- Columns 128..159 of the joined array are the edge attributes. -/
theorem cat_right (e : Fin 1600000) (k : Fin 32) (k' : Fin 160) (hk : k'.val = 128 + k.val) :
    val_main_v11 (F := Ideal) x0 x1 x2 (ValueIdx.ix2 e k') = x2 (ValueIdx.ix2 e k) := by
  unfold val_main_v11
  exact concatenate_pair_apply_right (t := ⟨2, ![1600000, 160]⟩) (s₁ := ⟨2, ![1600000, 128]⟩) (s₂ := ⟨2, ![1600000, 32]⟩)
    1 (val_main_v10 (F := Ideal) x0 x1) x2 _ (ValueIdx.ix2 e k') rfl rfl (ValueIdx.ix2 e k)
    (fun b hb => match b, hb with
      | ⟨0, _⟩, _ => rfl
      | ⟨1, _⟩, hb => absurd rfl hb)
    (by show k.val + 128 = k'.val; omega)

/-! ## The contraction's operand indices and the bias index -/

/-- The left operand's index of the 160-term contraction at entry (e, q), term k, is (e, k). -/
theorem lidx12_eq (e : Fin 1600000) (q : Fin 128) (k : Fin 160) :
    Cert.ReferenceIdeal.Read.lidx_main_v12 (ValueIdx.ix2 e q) k = ValueIdx.ix2 e k :=
  funext fun a => Fin.ext (by match a with | ⟨0, _⟩ => rfl | ⟨1, _⟩ => rfl)

/-- The right operand's index of the 160-term contraction at entry (e, q), term k, is (k, q). -/
theorem ridx12_eq (e : Fin 1600000) (q : Fin 128) (k : Fin 160) :
    Cert.ReferenceIdeal.Read.ridx_main_v12 (ValueIdx.ix2 e q) k = ValueIdx.ix2 k q :=
  funext fun a => Fin.ext (by match a with | ⟨0, _⟩ => rfl | ⟨1, _⟩ => rfl)

/-- The message bias broadcast to every row reads the bias vector at the column. -/
theorem bidx14_eq (e : Fin 1600000) (q : Fin 128) :
    Cert.ReferenceIdeal.Read.idx_main_v13 (Cert.ReferenceIdeal.Read.idx_main_v14 (ValueIdx.ix2 e q)) = ValueIdx.ix1 q :=
  funext fun a => Fin.ext (by match a with | ⟨0, _⟩ => rfl)

/-! ## The edge messages -/

/-- Term k < 128 of the 160-term sum: gathered row entry times the weight in row k. -/
theorem term_left (e : Fin 1600000) (q : Fin 128) (k : Fin 128) (k' : Fin 160) (hk : k'.val = k.val) :
    kernelSrc x0 x1 (ValueIdx.ix2 e k) *
        truncf (F := Ideal) .bf16 (extractStridedSlice S128x128 ![0, 0] x5 Gen.slices_S160x128_S128x128_0_0) Gen.bitsLt_bf16_f32 (ValueIdx.ix2 k q)
      = Cert.ReferenceIdeal.Read.val_main_v11 (F := Ideal) x0 x1 x2 (Cert.ReferenceIdeal.Read.lidx_main_v12 (ValueIdx.ix2 e q) k')
          * x5 (Cert.ReferenceIdeal.Read.ridx_main_v12 (ValueIdx.ix2 e q) k') := by
  rw [lidx12_eq, ridx12_eq, cat_left x0 x1 x2 e k k' hk]
  refine congrArg₂ (· * ·) rfl ?_
  exact (ValueIdx.truncf_apply (φ := .f32) (ψ := .bf16) _ Gen.bitsLt_bf16_f32 _).trans (ValueIdx.slice2_axis0_apply 0 x5 _ k q k' (by omega))

/-- Term 128 + k of the 160-term sum: edge attribute entry times the weight in row 128 + k. -/
theorem term_right (e : Fin 1600000) (q : Fin 128) (k : Fin 32) (k' : Fin 160) (hk : k'.val = 128 + k.val) :
    truncf (F := Ideal) .bf16 x2 Gen.bitsLt_bf16_f32 (ValueIdx.ix2 e k) *
        truncf (F := Ideal) .bf16 (extractStridedSlice S32x128 ![128, 0] x5 Gen.slices_S160x128_S32x128_128_0) Gen.bitsLt_bf16_f32 (ValueIdx.ix2 k q)
      = Cert.ReferenceIdeal.Read.val_main_v11 (F := Ideal) x0 x1 x2 (Cert.ReferenceIdeal.Read.lidx_main_v12 (ValueIdx.ix2 e q) k')
          * x5 (Cert.ReferenceIdeal.Read.ridx_main_v12 (ValueIdx.ix2 e q) k') := by
  rw [lidx12_eq, ridx12_eq, cat_right x0 x1 x2 e k k' hk]
  refine congrArg₂ (· * ·) rfl ?_
  exact (ValueIdx.truncf_apply (φ := .f32) (ψ := .bf16) _ Gen.bitsLt_bf16_f32 _).trans (ValueIdx.slice2_axis0_apply 128 x5 _ k q k' hk)

/-- The kernel's edge messages are the reference's: the 160-term sum split into its first 128 and last 32 terms. -/
theorem msg_eq : kernelMsg x0 x1 x2 x5 x6 = Cert.ReferenceIdeal.Read.val_main_v15 (F := Ideal) x0 x1 x2 x5 x6 := by
  funext i
  obtain ⟨e, q, rfl⟩ : ∃ (e : Fin 1600000) (q : Fin 128), i = ValueIdx.ix2 e q := ⟨i 0, i 1, ValueIdx.eq_ix2 i⟩
  unfold kernelMsg
  rw [Cert.GraphConv.msg_apply]
  rw [Cert.ReferenceIdeal.Read.val_main_v15_apply, Cert.ReferenceIdeal.Read.val_main_v12_apply,
    Cert.ReferenceIdeal.Read.val_main_v14_apply, Cert.ReferenceIdeal.Read.val_main_v13_apply]
  rw [Cert.GraphConv.sum_split, Ideal.addf_def, bidx14_eq]
  refine congrArg₂ (· + ·) (congrArg₂ (· + ·) ?_ ?_) ?_
  · exact Finset.sum_congr rfl fun k _ => term_left x0 x1 x2 x5 e q k _ rfl
  · exact Finset.sum_congr rfl fun k _ => term_right x0 x1 x2 x5 e q k _ rfl
  · exact ValueIdx.shapeCast_a_1a_apply x6 _ 0 q

/-! ## The aggregate: the same scatter of the same messages into the same zero array -/

/-- The kernel's aggregate is the reference's. -/
theorem agg_eq : kernelAgg x0 x1 x2 x5 x6 = Cert.ReferenceIdeal.Read.val_main_v18 (F := Ideal) x0 x1 x2 x5 x6 := by
  unfold kernelAgg Cert.ReferenceIdeal.Read.val_main_v18
  rw [msg_eq]
  rfl

/-! ## The node update -/

/-- The left operand's index of the 128-term contraction at entry (p, q), term k, is (p, k). -/
theorem lidx19_eq (p : Fin 100000) (q : Fin 128) (k : Fin 128) :
    Cert.ReferenceIdeal.Read.lidx_main_v19 (ValueIdx.ix2 p q) k = ValueIdx.ix2 p k :=
  funext fun a => Fin.ext (by match a with | ⟨0, _⟩ => rfl | ⟨1, _⟩ => rfl)

/-- The right operand's index of the 128-term contraction at entry (p, q), term k, is (k, q). -/
theorem ridx19_eq (p : Fin 100000) (q : Fin 128) (k : Fin 128) :
    Cert.ReferenceIdeal.Read.ridx_main_v19 (ValueIdx.ix2 p q) k = ValueIdx.ix2 k q :=
  funext fun a => Fin.ext (by match a with | ⟨0, _⟩ => rfl | ⟨1, _⟩ => rfl)

/-- The self bias broadcast to every row reads the bias vector at the column. -/
theorem bidx21_eq (p : Fin 100000) (q : Fin 128) :
    Cert.ReferenceIdeal.Read.idx_main_v20 (Cert.ReferenceIdeal.Read.idx_main_v21 (ValueIdx.ix2 p q)) = ValueIdx.ix1 q :=
  funext fun a => Fin.ext (by match a with | ⟨0, _⟩ => rfl)

/-- The kernel's result is the reference's. -/
theorem val_eq : kernelVal x0 x1 x2 x3 x4 x5 x6 = Cert.ReferenceIdeal.Read.val_main_v24 (F := Ideal) x0 x1 x2 x3 x4 x5 x6 := by
  funext i
  obtain ⟨p, q, rfl⟩ : ∃ (p : Fin 100000) (q : Fin 128), i = ValueIdx.ix2 p q := ⟨i 0, i 1, ValueIdx.eq_ix2 i⟩
  unfold kernelVal
  rw [Cert.GraphConv.upd_apply]
  rw [Cert.ReferenceIdeal.Read.val_main_v24_apply, Cert.ReferenceIdeal.Read.val_main_v23_apply,
    Cert.ReferenceIdeal.Read.val_main_v22_apply, Cert.ReferenceIdeal.Read.val_main_v19_apply,
    Cert.ReferenceIdeal.Read.val_main_v21_apply, Cert.ReferenceIdeal.Read.val_main_v20_apply,
    Cert.ReferenceIdeal.Read.val_main_call0_v0_apply, Cert.ReferenceIdeal.Read.val_main_call0_cst_apply]
  rw [Ideal.maximumf_def, Ideal.addf_def, Ideal.addf_def, Ideal.ofBits_def, bidx21_eq]
  refine congrArg₂ max (congrArg₂ (· + ·) (congrArg₂ (· + ·) ?_ ?_) ?_) rfl
  · refine Finset.sum_congr rfl fun k _ => ?_
    rw [lidx19_eq, ridx19_eq]
    rfl
  · exact ValueIdx.shapeCast_a_1a_apply x4 _ 0 q
  · exact congrFun (agg_eq x0 x1 x2 x5 x6) (ValueIdx.ix2 p q)

end Cert.Bridge

end
-- ==== Proof.lean ====
/-
  A graph convolution layer: every edge e sends the message
      m(e) = [x(src e) | a(e)] · W_msg + b_msg,
  every node adds up the messages of its incoming edges, and the new feature is
      relu (x · W_self + b_self + agg).
  The kernel program gathers the source rows, computes the messages in one blocked region as
  x(src e) · W_msg[0:128] + a(e) · W_msg[128:160] + b_msg, adds them up per destination node on the host, and applies the
  node update in a second blocked region; the reference concatenates [x(src e) | a(e)] and takes one product with W_msg.
  On the extended reals the two agree entry by entry: a sum over the 160 concatenated columns is the sum over the first
  128 plus the sum over the last 32 (commutativity and associativity of the addition only, so the finiteness of the
  inputs is not used), a change of float format is the identity, the gather, the scatter-add and the order of the last
  additions are the same on both sides, and the blocks of each region cover its output array.
  The three frames are the programs' runs with the result dropped; the idealization rewrote nothing.
-/
import proofs.«103146_j35373350650219_2_alg».proof.Defs
import proofs.«103146_j35373350650219_2_alg».proof.Proof.Gen.Kernel
import proofs.«103146_j35373350650219_2_alg».proof.Proof.Gen.Kernel.Frame
import proofs.«103146_j35373350650219_2_alg».proof.Proof.Gen.KernelIdeal
import proofs.«103146_j35373350650219_2_alg».proof.Proof.Gen.KernelIdeal.Frame
import proofs.«103146_j35373350650219_2_alg».proof.Proof.Gen.ReferenceIdeal
import proofs.«103146_j35373350650219_2_alg».proof.Proof.Gen.ReferenceIdeal.Run
import proofs.«103146_j35373350650219_2_alg».proof.Proof.Gen.ReferenceIdeal.Read
import proofs.«103146_j35373350650219_2_alg».proof.Proof.Gen.Pre_finite_inputs
import proofs.«103146_j35373350650219_2_alg».proof.Proof.KernelValue
import proofs.«103146_j35373350650219_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the node update of the argument arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v24_eq, e0, e1, e2, e3, e4, e5, e6]
  exact (Cert.Bridge.val_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
